-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x512x1024, .f32⟩
  | .local _ .vmem, ⟨11, _⟩ => ⟨S1x512x1024, .f32⟩
  | .local _ .vmem, ⟨12, _⟩ => ⟨S2048x1024, .bf16⟩
  | .local _ .vmem, ⟨13, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .f32 = 32 ∨ (Rect.block (s := S4x2048x1024) S1x2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .f32 = 32 ∨ (Rect.block (s := S4x2048x1024) S1x512x1024.size (cc0_transform_9 i) (hinb0_9 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one run of the kernel body leaves behind, as the body's stored values.

  The body runs in one of two ways. At the FIRST tile of a batch it projects the batch's whole key block and whole value
  block, stores the two projections whole into its two caches, reads both caches back, and stores the attention output
  of the tile's query rows over them. At every LATER tile of the batch it stores nothing into the caches and computes
  the same attention output over what the caches already hold.

  Every store writes a whole buffer and every load reads a whole buffer, so what a buffer holds afterwards is the one
  stored value, and a load of a cache just stored reads that stored value:

  * first tile: the key cache ends as the key projection of the loaded key block, the value cache as the value
    projection of the loaded value block, and the output block as the attention output over exactly those two;
  * later tile: the output block is the attention output over the caches' carried contents.
-/
import proofs.«130175_j17222818857644_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x512x1024 .f32) (harg2 : arg2.IsWhole)
  (arg3 : Memref sig .tc .vmem S1x2048x1024 .f32) (harg3 : arg3.IsWhole)
  (arg4 : Memref sig .tc .vmem S1x2048x1024 .f32) (harg4 : arg4.IsWhole)
  (arg5 : Memref sig .tc .vmem S1024x1024 .bf16) (harg5 : arg5.IsWhole)
  (arg6 : Memref sig .tc .vmem S1024 .f32) (harg6 : arg6.IsWhole)
  (arg7 : Memref sig .tc .vmem S1024x1024 .bf16) (harg7 : arg7.IsWhole)
  (arg8 : Memref sig .tc .vmem S1024 .f32) (harg8 : arg8.IsWhole)
  (arg9 : Memref sig .tc .vmem S1024x1024 .bf16) (harg9 : arg9.IsWhole)
  (arg10 : Memref sig .tc .vmem S1024 .f32) (harg10 : arg10.IsWhole)
  (arg11 : Memref sig .tc .vmem S1x512x1024 .f32) (harg11 : arg11.IsWhole)
  (arg12 : Memref sig .tc .vmem S2048x1024 .bf16) (harg12 : arg12.IsWhole)
  (arg13 : Memref sig .tc .vmem S2048x1024 .bf16) (harg13 : arg13.IsWhole)

/-- First tile: the key cache ends holding the key projection of the key block the body loaded. -/
theorem kcache_A (hc0 : cond0_0 i) (x0 : Vec F S1x512x1024 .f32) (x1 x2 : Vec F S1x2048x1024 .f32) (x3 : Vec F S1024x1024 .bf16) (x4 : Vec F S1024 .f32) (x5 : Vec F S1024x1024 .bf16) (x6 : Vec F S1024 .f32) (x7 : Vec F S1024x1024 .bf16) (x8 : Vec F S1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg3.read_unread, harg7.read_unread, harg8.read_unread,
    View.ld_unit_zero (S := S1x2048x1024) hz3, View.ld_unit_zero (S := S1024x1024) hz2, View.ld_unit_zero (S := S1024) hz1]

/-- First tile: the value cache ends holding the value projection of the value block the body loaded. -/
theorem vcache_A (hc0 : cond0_0 i) (x0 : Vec F S1x512x1024 .f32) (x1 x2 : Vec F S1x2048x1024 .f32) (x3 : Vec F S1024x1024 .bf16) (x4 : Vec F S1024 .f32) (x5 : Vec F S1024x1024 .bf16) (x6 : Vec F S1024 .f32) (x7 : Vec F S1024x1024 .bf16) (x8 : Vec F S1024 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg4.read_unread, harg9.read_unread, harg10.read_unread,
    View.ld_unit_zero (S := S1x2048x1024) hz3, View.ld_unit_zero (S := S1024x1024) hz2, View.ld_unit_zero (S := S1024) hz1]

/-- First tile: the output block is the attention output of the query block over the two projections just stored —
    the body's loads of the caches read back what its own stores left there. -/
theorem out_A (hc0 : cond0_0 i) (x0 : Vec F S1x512x1024 .f32) (x1 x2 : Vec F S1x2048x1024 .f32) (x3 : Vec F S1024x1024 .bf16) (x4 : Vec F S1024 .f32) (x5 : Vec F S1024x1024 .bf16) (x6 : Vec F S1024 .f32) (x7 : Vec F S1024x1024 .bf16) (x8 : Vec F S1024 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x0 x3 x4 (k0_pay1 x1 x5 x6) (k0_pay2 x2 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3, View.readCov_unit_zero (S := S2048x1024) _ hz2, View.readCov_unit_zero (S := S2048x1024) _ hz2]
  simp only [View.readAt_eq_ld, harg2.read_unread, harg3.read_unread, harg4.read_unread, harg5.read_unread, harg6.read_unread,
    harg7.read_unread, harg8.read_unread, harg9.read_unread, harg10.read_unread,
    View.ld_unit_zero (S := S1x512x1024) hz3, View.ld_unit_zero (S := S1x2048x1024) hz3, View.ld_unit_zero (S := S1024x1024) hz2,
    View.ld_unit_zero (S := S1024) hz1]

/-- Later tile: the output block is the attention output of the query block over what the caches carried in. -/
theorem out_B (hc0 : ¬cond0_0 i) (x0 : Vec F S1x512x1024 .f32) (x1 x2 : Vec F S1x2048x1024 .f32) (x3 : Vec F S1024x1024 .bf16) (x4 : Vec F S1024 .f32) (x5 : Vec F S1024x1024 .bf16) (x6 : Vec F S1024 .f32) (x7 : Vec F S1024x1024 .bf16) (x8 : Vec F S1024 .f32) (xs0 xs1 : Vec F S2048x1024 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay3 x0 x3 x4 xs0 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  rw [View.canon_unit_zero hz3]
  simp only [View.readAt_eq_ld, harg2.read_unread, harg5.read_unread, harg6.read_unread, harg12.read_unread, harg13.read_unread,
    View.ld_unit_zero (S := S1x512x1024) hz3, View.ld_unit_zero (S := S1024x1024) hz2, View.ld_unit_zero (S := S1024) hz1,
    View.ld_unit_zero (S := S2048x1024) hz2]

end Cert.KernelIdeal.Pieces

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.LibLinearBlock.lean ====
/-
  A linear layer's block read at an index, at the ideal values.

  A kernel spells a dense layer x · Wᵀ + b on a block of M rows this way: the product of the M × K block with the N × K
  weight matrix contracted on BOTH operands' second axis (rows of the block against ROWS of the weight matrix) into the
  zero accumulator, and the bias of N entries viewed as one row [N] → [1, N] and repeated over the M rows
  [1, N] → [M, N], added. At (r, e) that is

      ∑ k, x (r, k) · W (e, k)  +  b e        (`linearBlock_apply`)

  for any M, K, N and any operand formats: a change of float format is the identity at the ideal values, so operands
  rounded to a shorter format before the product read the same. No finiteness is asked.
-/
import Idealize.ShloMosaic.PureOps.Ideal.Laws
import Idealize.ShloMosaic.Lib.ValueIdx
import Idealize.ShloMosaic.Lib.ValueLayout
import proofs.«130175_j17222818857644_2_alg».proof.Proof.LibTransposedRhsMatmul

noncomputable section

open scoped BigOperators

namespace Idealize.ShloMosaic.LinearBlock

open Idealize.ShloMosaic Idealize.ShloMosaic.ValueIdx

/-- A linear block at (r, e): row r of the block against row e of the weight matrix, plus the bias's entry e — the
    product into the zero accumulator contracted on both operands' second axis, the bias viewed as one row and repeated
    over the block's rows. -/
theorem linearBlock_apply {M K N : Nat} {φ₁ φ₂ : FTy} (x : FVec Ideal ⟨2, ![M, K]⟩ φ₁) (W : FVec Ideal ⟨2, ![N, K]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (r : Fin M) (e : Fin N) :
    addf (matmul (DotDims.transposedRhs M K N) none x W (constant ⟨2, ![M, N]⟩ .f32 0x00000000#32))
        (broadcastTo ⟨2, ![M, N]⟩ (shapeCast ⟨2, ![1, N]⟩ b hc) hb) (ix2 r e)
      = (∑ k : Fin K, x (ix2 r k) * W (ix2 e k)) + b (ix1 e) := by
  show _ + _ = _
  exact congrArg₂ (· + ·) (TransposedRhsMatmul.transposedRhsMatmul_apply none x W r e)
    ((broadcastTo_1b_ab_apply _ hb r e).trans (shapeCast_a_1a_apply b hc 0 e))

end Idealize.ShloMosaic.LinearBlock

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«130175_j17222818857644_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.Spec.lean ====
/-
  Scaled dot-product attention after three linear layers, as ONE function of the nine argument arrays, index by index,
  on the extended reals.

  The arguments are three arrays of 4 batches × 2048 positions × 1024 features (the query, key and value sources), and for
  each of them a 1024 × 1024 weight matrix and a bias of 1024 entries. A linear layer sends the row of features at
  (batch n, position s) to the row whose entry e is that row against ROW e of the weight matrix, plus the bias's entry e
  (`linear`: x · Wᵀ + b). With q, k, v the three layers' results,

      score n i j   = (∑ e, q n i e · k n j e) · (1/32)              the scaled product of query row i and key row j,
      weight n i j  = exp (score n i j − M) / ∑ c, exp (score n i c − M),   M the maximum over j of score n i j,
      result n i d  = ∑ j, weight n i j · v n j d.

  The maximum is the fold of `max` over the 2048 key positions from −∞, and the scale and −∞ are kept as the 32-bit words
  both programs print (2⁻⁵ and the pattern of −∞): the same word on both sides is never evaluated. Nothing here asks the
  entries to be finite: both programs are this function on every extended real input.
-/
import Idealize.ShloMosaic.PureOps.Ideal
import Idealize.ShloMosaic.Lib.ValueIdx
import proofs.«130175_j17222818857644_2_alg».proof.Proof.LibSoftmaxRows

noncomputable section

open scoped BigOperators

namespace Cert.Attention

open Idealize.ShloMosaic Idealize.ShloMosaic.ValueIdx

/-- Batches × positions × features. -/
abbrev Seq : Shape := ⟨3, ![4, 2048, 1024]⟩
/-- A weight matrix: output features × input features. -/
abbrev Mat : Shape := ⟨2, ![1024, 1024]⟩
/-- A bias: one entry per output feature. -/
abbrev Bias : Shape := ⟨1, ![1024]⟩

/-- The scale 2⁻⁵ = 1/√1024, as the word both programs print. -/
def scale : EReal := Ideal.ofBits .f32 0x3D000000#32
/-- −∞, as the word both programs start their maximum from. -/
def negInf : EReal := Ideal.ofBits .f32 0xFF800000#32

/-- A linear layer at (batch n, position s, output feature e): the row of x against row e of W, plus the bias. -/
def linear (x : Seq.Idx → EReal) (W : Mat.Idx → EReal) (b : Bias.Idx → EReal) (n : Fin 4) (s : Fin 2048) (e : Fin 1024) : EReal :=
  (∑ d : Fin 1024, x (ix3 n s d) * W (ix2 e d)) + b (ix1 e)

/-- The scaled score of query position i against key position j, in batch n. -/
def score (q k : Fin 4 → Fin 2048 → Fin 1024 → EReal) (n : Fin 4) (i j : Fin 2048) : EReal :=
  (∑ e : Fin 1024, q n i e * k n j e) * scale

/-- The attention output at (batch n, query position i, feature d): the softmax of row i's scores against the values. -/
def attend (q k v : Fin 4 → Fin 2048 → Fin 1024 → EReal) (n : Fin 4) (i : Fin 2048) (d : Fin 1024) : EReal :=
  ∑ j : Fin 2048, SoftmaxRows.softmaxAt (fun c => score q k n i c) negInf j * v n j d

/-- The whole result array as a function of the nine argument arrays. -/
def G (xq xk xv : Seq.Idx → EReal) (Wq : Mat.Idx → EReal) (bq : Bias.Idx → EReal) (Wk : Mat.Idx → EReal) (bk : Bias.Idx → EReal)
    (Wv : Mat.Idx → EReal) (bv : Bias.Idx → EReal) : Seq.Idx → EReal := fun idx =>
  attend (linear xq Wq bq) (linear xk Wk bk) (linear xv Wv bv) (idx 0) (idx 1) (idx 2)

theorem G_apply (xq xk xv : Seq.Idx → EReal) (Wq : Mat.Idx → EReal) (bq : Bias.Idx → EReal) (Wk : Mat.Idx → EReal) (bk : Bias.Idx → EReal)
    (Wv : Mat.Idx → EReal) (bv : Bias.Idx → EReal) (n : Fin 4) (i : Fin 2048) (d : Fin 1024) :
    G xq xk xv Wq bq Wk bk Wv bv (ix3 n i d) = attend (linear xq Wq bq) (linear xk Wk bk) (linear xv Wv bv) n i d := rfl

end Cert.Attention

end
-- ==== Proof.Payload.lean ====
/-
  The kernel body's three stored values, each read at an index on the extended reals.

  A LINEAR BLOCK is what the body computes three times: the rows of a block of features against the ROWS of a weight
  matrix (the product with the transpose), plus the bias laid as one row and repeated down the block. Rounding an
  operand to a shorter float format is the identity on the extended reals, so the roundings the body applies before
  and after each product do not appear.

  * the key (and the value) projection of a whole batch: entry (r, e) is row r of that batch's block against row e of
    the weight matrix, plus the bias at e;
  * the attention output of a tile of 512 query positions over the two projected caches: the query rows are projected
    the same way, each is scored against every cached key row and scaled by 2⁻⁵, the scores of a row are normalised by
    the softmax that subtracts the row's maximum, and entry (p, d) is the weighted sum of the cached value rows at d.
-/
import proofs.«130175_j17222818857644_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws
import proofs.«130175_j17222818857644_2_alg».proof.Proof.LibTransposedRhsMatmul
import proofs.«130175_j17222818857644_2_alg».proof.Proof.LibLinearBlock
import proofs.«130175_j17222818857644_2_alg».proof.Proof.LibPlainMatmul
import proofs.«130175_j17222818857644_2_alg».proof.Proof.LibSoftmaxRows
import proofs.«130175_j17222818857644_2_alg».proof.Proof.Spec

noncomputable section

open scoped BigOperators

namespace Cert.KernelIdeal.Payload

open Cert.KernelIdeal Cert.KernelIdeal.Gen Idealize.ShloMosaic Idealize.ShloMosaic.ValueIdx

/-- The projection a batch's key block is stored as, at (r, e). -/
theorem pay1_apply (x : Vec Ideal S1x2048x1024 .f32) (W : Vec Ideal S1024x1024 .bf16) (b : Vec Ideal S1024 .f32)
    (r : Fin 2048) (e : Fin 1024) :
    k0_pay1 x W b (ix2 r e) = (∑ d : Fin 1024, x (ix3 (0 : Fin 1) r d) * W (ix2 e d)) + b (ix1 e) := by
  unfold k0_pay1
  rw [shapeCast_self, shapeCast_self]
  refine (LinearBlock.linearBlock_apply (M := 2048) (K := 1024) (N := 1024)
    (truncf .bf16 (shapeCast S2048x1024 x shapeCasts_S1x2048x1024_S2048x1024) bitsLt_bf16_f32) W b
    shapeCasts_S1024_S1x1024 broadcasts_S1x1024_S2048x1024 r e).trans ?_
  refine congrArg (· + b (ix1 e)) (Finset.sum_congr rfl fun d _ => ?_)
  exact congrArg (· * W (ix2 e d)) (shapeCast_1ab_ab_apply x shapeCasts_S1x2048x1024_S2048x1024 r d)

/-- The projection a batch's value block is stored as, at (r, e): the same linear block. -/
theorem pay2_apply (x : Vec Ideal S1x2048x1024 .f32) (W : Vec Ideal S1024x1024 .bf16) (b : Vec Ideal S1024 .f32)
    (r : Fin 2048) (e : Fin 1024) :
    k0_pay2 x W b (ix2 r e) = (∑ d : Fin 1024, x (ix3 (0 : Fin 1) r d) * W (ix2 e d)) + b (ix1 e) := by
  unfold k0_pay2
  rw [shapeCast_self, shapeCast_self]
  refine (LinearBlock.linearBlock_apply (M := 2048) (K := 1024) (N := 1024)
    (truncf .bf16 (shapeCast S2048x1024 x shapeCasts_S1x2048x1024_S2048x1024) bitsLt_bf16_f32) W b
    shapeCasts_S1024_S1x1024 broadcasts_S1x1024_S2048x1024 r e).trans ?_
  refine congrArg (· + b (ix1 e)) (Finset.sum_congr rfl fun d _ => ?_)
  exact congrArg (· * W (ix2 e d)) (shapeCast_1ab_ab_apply x shapeCasts_S1x2048x1024_S2048x1024 r d)

/-- Row p of a tile's projected queries at feature e: the same linear layer, on the tile's 512 rows. -/
def qrow (x : Vec Ideal S1x512x1024 .f32) (W : Vec Ideal S1024x1024 .bf16) (b : Vec Ideal S1024 .f32) (p : Fin 512)
    (e : Fin 1024) : EReal :=
  (∑ d : Fin 1024, x (ix3 (0 : Fin 1) p d) * W (ix2 e d)) + b (ix1 e)

/-- The scaled score of the tile's query row p against row c of a key cache. -/
def tileScore (x : Vec Ideal S1x512x1024 .f32) (W : Vec Ideal S1024x1024 .bf16) (b : Vec Ideal S1024 .f32)
    (kc : Vec Ideal S2048x1024 .bf16) (p : Fin 512) (c : Fin 2048) : EReal :=
  (∑ e : Fin 1024, qrow x W b p e * kc (ix2 c e)) * Cert.Attention.scale

/-- The attention output of a tile of query rows over a key cache and a value cache, at (p, d): the softmax of row p's
    scaled scores against the cached key rows, as weights on the cached value rows' entries at d. -/
theorem pay3_apply (x : Vec Ideal S1x512x1024 .f32) (W : Vec Ideal S1024x1024 .bf16) (b : Vec Ideal S1024 .f32)
    (kc vc : Vec Ideal S2048x1024 .bf16) (u : Fin 1) (p : Fin 512) (d : Fin 1024) :
    k0_pay3 x W b kc vc (ix3 u p d)
      = ∑ j : Fin 2048, SoftmaxRows.softmaxAt (fun c => tileScore x W b kc p c) Cert.Attention.negInf j * vc (ix2 j d) := by
  unfold k0_pay3
  rw [shapeCast_self]
  refine (shapeCast_ab_1ab_apply _ shapeCasts_S512x1024_S1x512x1024 u p d).trans ?_
  refine (PlainMatmul.plainMatmul_apply (M := 512) (K := 2048) (N := 1024) (φ₁ := .bf16) (φ₂ := .bf16) none _ vc p d).trans ?_
  refine Finset.sum_congr rfl fun j _ => congrArg (· * vc (ix2 j d)) ?_
  rw [truncf_apply]
  refine (SoftmaxRows.softmaxRows_apply (n0 := 512) (n1 := 2048) _ 0xFF800000#32 0x00000000#32 reduces_S512x2048_S512
    shapeCasts_S512_S512x1 broadcasts_S512x1_S512x2048 (.inl rfl) rfl rfl p j).trans ?_
  refine congrArg (fun row => SoftmaxRows.softmaxAt row Cert.Attention.negInf j) (funext fun c => ?_)
  show _ * _ = _
  unfold tileScore
  refine congrArg (· * Cert.Attention.scale) ?_
  refine (TransposedRhsMatmul.transposedRhsMatmul_apply (M := 512) (K := 1024) (N := 2048) (φ₁ := .bf16) (φ₂ := .bf16) none _ kc p c).trans ?_
  refine Finset.sum_congr rfl fun e _ => congrArg (· * kc (ix2 c e)) ?_
  rw [truncf_apply]
  refine (LinearBlock.linearBlock_apply (M := 512) (K := 1024) (N := 1024)
    (truncf .bf16 (shapeCast S512x1024 x shapeCasts_S1x512x1024_S512x1024) bitsLt_bf16_f32) W b
    shapeCasts_S1024_S1x1024 broadcasts_S1x1024_S512x1024 p e).trans ?_
  unfold qrow
  refine congrArg (· + b (ix1 e)) (Finset.sum_congr rfl fun d' _ => ?_)
  exact congrArg (· * W (ix2 e d')) (shapeCast_1ab_ab_apply x shapeCasts_S1x512x1024_S512x1024 p d')

end Cert.KernelIdeal.Payload

end
-- ==== Proof.Blocks.lean ====
/-
  The blocks the kernel body is handed at a grid point, read off the argument arrays at coordinates.

  The sixteen grid points run over 4 batches × 4 tiles of 512 query positions: point t is tile t % 4 of batch t / 4. At
  point t the body sees rows (t % 4)·512 … (t % 4)·512 + 511 of batch t / 4 of the query source, ALL 2048 rows of batch
  t / 4 of the key source and of the value source, and the three weight matrices and three biases whole. The weight
  matrices reach the kernel through a change of float format made before the call, which is the identity on the
  extended reals, so the body sees the argument matrices themselves.
-/
import proofs.«130175_j17222818857644_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The batch a grid point works on. -/
def bat (t : Fin cfg0.N) : Fin 4 := ⟨t.val / 4, by have h := lt_of_lt_of_eq t.isLt (show cfg0.N = 16 from N_0); omega⟩

/-- The position, in its batch, of row p of the tile a grid point works on. -/
def row (t : Fin cfg0.N) (p : Fin 512) : Fin 2048 := ⟨t.val % 4 * 512 + p.val, by have := p.isLt; omega⟩

/-- The query window's and the output window's block indices: (batch, tile, 0). -/
theorem idx_tile : ∀ t : Fin cfg0.N,
    win0_0.index t (0 : Fin 3) = t.val / 4 ∧ win0_0.index t (1 : Fin 3) = t.val % 4 ∧ win0_0.index t (2 : Fin 3) = 0
    ∧ win0_9.index t (0 : Fin 3) = t.val / 4 ∧ win0_9.index t (1 : Fin 3) = t.val % 4 ∧ win0_9.index t (2 : Fin 3) = 0 :=
  (by decide +kernel : ∀ t : Fin grid0.N, _)

/-- The key window's and the value window's block indices: (batch, 0, 0). -/
theorem idx_batch : ∀ t : Fin cfg0.N,
    win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The weights' and biases' windows never move. -/
theorem idx_whole : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-- The query block at point t, at (p, d): the query source at (batch, the tile's row p, d). -/
theorem qblk_apply (c : Dev nD) (t : Fin cfg0.N) (u : Fin 1) (p : Fin 512) (d : Fin 1024) :
    (iblk m c 0 t : Vec Ideal S1x512x1024 .f32) (ix3 u p d)
      = m ((c : Thread nD τ).loc main_arg0) (ix3 (bat t) (row t p) d) := by
  refine Eq.trans ?_ (congrFun (V_main_arg0 m c) _)
  show V m c main_arg0 (((cfg0.win 0).blk t).view.emb (ix3 u p d)) = V m c main_arg0 (ix3 (bat t) (row t p) d)
  refine congrArg _ (funext fun a => Fin.ext ?_)
  obtain ⟨e0, e1, e2, -, -, -⟩ := idx_tile t
  have hu : u.val = 0 := by omega
  match a with
  | ⟨0, _⟩ => show win0_0.index t (0 : Fin 3) * 1 + 1 * u.val = t.val / 4; omega
  | ⟨1, _⟩ => show win0_0.index t (1 : Fin 3) * 512 + 1 * p.val = t.val % 4 * 512 + p.val; omega
  | ⟨2, _⟩ => show win0_0.index t (2 : Fin 3) * 1024 + 1 * d.val = d.val; omega

/-- The key block at point t, at (r, d): the key source at (batch, r, d) — the batch's whole row range. -/
theorem kblk_apply (c : Dev nD) (t : Fin cfg0.N) (u : Fin 1) (r : Fin 2048) (d : Fin 1024) :
    (iblk m c 1 t : Vec Ideal S1x2048x1024 .f32) (ix3 u r d)
      = m ((c : Thread nD τ).loc main_arg1) (ix3 (bat t) r d) := by
  refine Eq.trans ?_ (congrFun (V_main_arg1 m c) _)
  show V m c main_arg1 (((cfg0.win 1).blk t).view.emb (ix3 u r d)) = V m c main_arg1 (ix3 (bat t) r d)
  refine congrArg _ (funext fun a => Fin.ext ?_)
  obtain ⟨e0, e1, e2, -, -, -⟩ := idx_batch t
  have hu : u.val = 0 := by omega
  match a with
  | ⟨0, _⟩ => show win0_1.index t (0 : Fin 3) * 1 + 1 * u.val = t.val / 4; omega
  | ⟨1, _⟩ => show win0_1.index t (1 : Fin 3) * 2048 + 1 * r.val = r.val; omega
  | ⟨2, _⟩ => show win0_1.index t (2 : Fin 3) * 1024 + 1 * d.val = d.val; omega

/-- The value block at point t, at (r, d): the value source at (batch, r, d). -/
theorem vblk_apply (c : Dev nD) (t : Fin cfg0.N) (u : Fin 1) (r : Fin 2048) (d : Fin 1024) :
    (iblk m c 2 t : Vec Ideal S1x2048x1024 .f32) (ix3 u r d)
      = m ((c : Thread nD τ).loc main_arg2) (ix3 (bat t) r d) := by
  refine Eq.trans ?_ (congrFun (V_main_arg2 m c) _)
  show V m c main_arg2 (((cfg0.win 2).blk t).view.emb (ix3 u r d)) = V m c main_arg2 (ix3 (bat t) r d)
  refine congrArg _ (funext fun a => Fin.ext ?_)
  obtain ⟨-, -, -, e0, e1, e2⟩ := idx_batch t
  have hu : u.val = 0 := by omega
  match a with
  | ⟨0, _⟩ => show win0_2.index t (0 : Fin 3) * 1 + 1 * u.val = t.val / 4; omega
  | ⟨1, _⟩ => show win0_2.index t (1 : Fin 3) * 2048 + 1 * r.val = r.val; omega
  | ⟨2, _⟩ => show win0_2.index t (2 : Fin 3) * 1024 + 1 * d.val = d.val; omega

/-- The query bias block is the whole bias. -/
theorem bqblk_apply (c : Dev nD) (t : Fin cfg0.N) (e : Fin 1024) :
    (iblk m c 4 t : Vec Ideal S1024 .f32) (ix1 e) = m ((c : Thread nD τ).loc main_arg4) (ix1 e) := by
  refine Eq.trans ?_ (congrFun (V_main_arg4 m c) _)
  show V m c main_arg4 (((cfg0.win 4).blk t).view.emb (ix1 e)) = V m c main_arg4 (ix1 e)
  refine congrArg _ (funext fun a => Fin.ext ?_)
  obtain ⟨-, -, e0, -, -, -, -, -, -⟩ := idx_whole t
  match a with
  | ⟨0, _⟩ => show win0_4.index t (0 : Fin 1) * 1024 + 1 * e.val = e.val; omega

/-- The key bias block is the whole bias. -/
theorem bkblk_apply (c : Dev nD) (t : Fin cfg0.N) (e : Fin 1024) :
    (iblk m c 6 t : Vec Ideal S1024 .f32) (ix1 e) = m ((c : Thread nD τ).loc main_arg6) (ix1 e) := by
  refine Eq.trans ?_ (congrFun (V_main_arg6 m c) _)
  show V m c main_arg6 (((cfg0.win 6).blk t).view.emb (ix1 e)) = V m c main_arg6 (ix1 e)
  refine congrArg _ (funext fun a => Fin.ext ?_)
  obtain ⟨-, -, -, -, -, e0, -, -, -⟩ := idx_whole t
  match a with
  | ⟨0, _⟩ => show win0_6.index t (0 : Fin 1) * 1024 + 1 * e.val = e.val; omega

/-- The value bias block is the whole bias. -/
theorem bvblk_apply (c : Dev nD) (t : Fin cfg0.N) (e : Fin 1024) :
    (iblk m c 8 t : Vec Ideal S1024 .f32) (ix1 e) = m ((c : Thread nD τ).loc main_arg8) (ix1 e) := by
  refine Eq.trans ?_ (congrFun (V_main_arg8 m c) _)
  show V m c main_arg8 (((cfg0.win 8).blk t).view.emb (ix1 e)) = V m c main_arg8 (ix1 e)
  refine congrArg _ (funext fun a => Fin.ext ?_)
  obtain ⟨-, -, -, -, -, -, -, -, e0⟩ := idx_whole t
  match a with
  | ⟨0, _⟩ => show win0_8.index t (0 : Fin 1) * 1024 + 1 * e.val = e.val; omega

/-- What the region finds in the three weight buffers: the argument matrices after the change of float format made
    before the call. -/
theorem V_wq (c : Dev nD) (i : S1024x1024.Idx) : V m c main_v0 i = m ((c : Thread nD τ).loc main_arg3) i := by
  have e : @Eq (FVec Ideal S1024x1024 .bf16) (V m c main_v0)
      (truncf .bf16 (m ((c : Thread nD τ).loc main_arg3) : FVec Ideal S1024x1024 .f32) bitsLt_bf16_f32) := by
    dsimp only [V, hostOps0]; after_results
  exact congrFun e i
theorem V_wk (c : Dev nD) (i : S1024x1024.Idx) : V m c main_v1 i = m ((c : Thread nD τ).loc main_arg5) i := by
  have e : @Eq (FVec Ideal S1024x1024 .bf16) (V m c main_v1)
      (truncf .bf16 (m ((c : Thread nD τ).loc main_arg5) : FVec Ideal S1024x1024 .f32) bitsLt_bf16_f32) := by
    dsimp only [V, hostOps0]; after_results
  exact congrFun e i
theorem V_wv (c : Dev nD) (i : S1024x1024.Idx) : V m c main_v2 i = m ((c : Thread nD τ).loc main_arg7) i := by
  have e : @Eq (FVec Ideal S1024x1024 .bf16) (V m c main_v2)
      (truncf .bf16 (m ((c : Thread nD τ).loc main_arg7) : FVec Ideal S1024x1024 .f32) bitsLt_bf16_f32) := by
    dsimp only [V, hostOps0]; after_results
  exact congrFun e i

/-- The query weight block is the whole argument matrix. -/
theorem wqblk_apply (c : Dev nD) (t : Fin cfg0.N) (e d : Fin 1024) :
    (iblk m c 3 t : Vec Ideal S1024x1024 .bf16) (ix2 e d) = m ((c : Thread nD τ).loc main_arg3) (ix2 e d) := by
  refine Eq.trans ?_ (V_wq m c _)
  show V m c main_v0 (((cfg0.win 3).blk t).view.emb (ix2 e d)) = V m c main_v0 (ix2 e d)
  refine congrArg _ (funext fun a => Fin.ext ?_)
  obtain ⟨e0, e1, -, -, -, -, -, -, -⟩ := idx_whole t
  match a with
  | ⟨0, _⟩ => show win0_3.index t (0 : Fin 2) * 1024 + 1 * e.val = e.val; omega
  | ⟨1, _⟩ => show win0_3.index t (1 : Fin 2) * 1024 + 1 * d.val = d.val; omega

/-- The key weight block is the whole argument matrix. -/
theorem wkblk_apply (c : Dev nD) (t : Fin cfg0.N) (e d : Fin 1024) :
    (iblk m c 5 t : Vec Ideal S1024x1024 .bf16) (ix2 e d) = m ((c : Thread nD τ).loc main_arg5) (ix2 e d) := by
  refine Eq.trans ?_ (V_wk m c _)
  show V m c main_v1 (((cfg0.win 5).blk t).view.emb (ix2 e d)) = V m c main_v1 (ix2 e d)
  refine congrArg _ (funext fun a => Fin.ext ?_)
  obtain ⟨-, -, -, e0, e1, -, -, -, -⟩ := idx_whole t
  match a with
  | ⟨0, _⟩ => show win0_5.index t (0 : Fin 2) * 1024 + 1 * e.val = e.val; omega
  | ⟨1, _⟩ => show win0_5.index t (1 : Fin 2) * 1024 + 1 * d.val = d.val; omega

/-- The value weight block is the whole argument matrix. -/
theorem wvblk_apply (c : Dev nD) (t : Fin cfg0.N) (e d : Fin 1024) :
    (iblk m c 7 t : Vec Ideal S1024x1024 .bf16) (ix2 e d) = m ((c : Thread nD τ).loc main_arg7) (ix2 e d) := by
  refine Eq.trans ?_ (V_wv m c _)
  show V m c main_v2 (((cfg0.win 7).blk t).view.emb (ix2 e d)) = V m c main_v2 (ix2 e d)
  refine congrArg _ (funext fun a => Fin.ext ?_)
  obtain ⟨-, -, -, -, -, -, e0, e1, -⟩ := idx_whole t
  match a with
  | ⟨0, _⟩ => show win0_7.index t (0 : Fin 2) * 1024 + 1 * e.val = e.val; omega
  | ⟨1, _⟩ => show win0_7.index t (1 : Fin 2) * 1024 + 1 * d.val = d.val; omega

end Cert.KernelIdeal.Blocks

end
-- ==== Proof.Caches.lean ====
/-
  What the two caches and the output block hold after each grid point.

  The grid runs the four tiles of a batch one after the other, and a batch's first tile (point t with t % 4 = 0) stores
  that batch's key projection and value projection whole into the two caches; the batch's later tiles store nothing
  into them. So after EVERY point t the caches hold the key and value projections of batch t / 4 — at a first tile because
  the body has just stored them from that batch's blocks, at a later tile because the point before belongs to the same
  batch and left them there. The output block after point t is therefore the attention output of the tile's query rows
  over batch t / 4's two projections, at a first tile and at a later tile alike.

  Proved by induction on the point, never by enumerating the sixteen points.
-/
import proofs.«130175_j17222818857644_2_alg».proof.Proof.Gen.KernelIdeal.Frame
import proofs.«130175_j17222818857644_2_alg».proof.Proof.Pieces
import proofs.«130175_j17222818857644_2_alg».proof.Proof.Payload
import proofs.«130175_j17222818857644_2_alg».proof.Proof.Blocks
import proofs.«130175_j17222818857644_2_alg».proof.Proof.Spec

noncomputable section

open scoped BigOperators
open Idealize.ShloMosaic Idealize.ShloMosaic.TcCoe Idealize.SL.Sem

namespace Cert.KernelIdeal.Caches

open Cert.KernelIdeal Cert.KernelIdeal.Gen Idealize.ShloMosaic.ValueIdx Cert.KernelIdeal.Blocks Cert.Attention

variable (m : (ℓ : Loc nD τ sig) → Buf (Elt Ideal) ℓ)

/-- The key projection of batch b, as the contents of a cache: entry (r, e) is the key source's row r of batch b
    through the key layer, at e. -/
def kcache (c : Dev nD) (b : Fin 4) : Vec Ideal S2048x1024 .bf16 := fun y =>
  linear (m ((c : Thread nD τ).loc main_arg1)) (m ((c : Thread nD τ).loc main_arg5)) (m ((c : Thread nD τ).loc main_arg6)) b (y 0) (y 1)

/-- The value projection of batch b, as the contents of a cache. -/
def vcache (c : Dev nD) (b : Fin 4) : Vec Ideal S2048x1024 .bf16 := fun y =>
  linear (m ((c : Thread nD τ).loc main_arg2)) (m ((c : Thread nD τ).loc main_arg7)) (m ((c : Thread nD τ).loc main_arg8)) b (y 0) (y 1)

/-- The attention output of point t's tile of query rows over its batch's two projections. -/
def tileOut (c : Dev nD) (t : Fin cfg0.N) : Vec Ideal S1x512x1024 .f32 :=
  k0_pay3 (iblk m c 0 t) (iblk m c 3 t) (iblk m c 4 t) (kcache m c (bat t)) (vcache m c (bat t))

/-- The key projection the body computes at point t from the blocks it is handed is batch t / 4's. -/
theorem kproj_eq (c : Dev nD) (t : Fin cfg0.N) :
    k0_pay1 (iblk m c 1 t) (iblk m c 5 t) (iblk m c 6 t) = kcache m c (bat t) := by
  funext y
  obtain ⟨r, e, rfl⟩ : ∃ (r : Fin 2048) (e : Fin 1024), y = ix2 r e := ⟨y 0, y 1, eq_ix2 y⟩
  refine (Payload.pay1_apply (iblk m c 1 t) (iblk m c 5 t) (iblk m c 6 t) r e).trans ?_
  show _ = linear _ _ _ (bat t) r e
  unfold linear
  exact congrArg₂ (· + ·) (Finset.sum_congr rfl fun d _ => congrArg₂ (· * ·) (kblk_apply m c t 0 r d) (wkblk_apply m c t e d))
    (bkblk_apply m c t e)

/-- The value projection the body computes at point t from the blocks it is handed is batch t / 4's. -/
theorem vproj_eq (c : Dev nD) (t : Fin cfg0.N) :
    k0_pay2 (iblk m c 2 t) (iblk m c 7 t) (iblk m c 8 t) = vcache m c (bat t) := by
  funext y
  obtain ⟨r, e, rfl⟩ : ∃ (r : Fin 2048) (e : Fin 1024), y = ix2 r e := ⟨y 0, y 1, eq_ix2 y⟩
  refine (Payload.pay2_apply (iblk m c 2 t) (iblk m c 7 t) (iblk m c 8 t) r e).trans ?_
  show _ = linear _ _ _ (bat t) r e
  unfold linear
  exact congrArg₂ (· + ·) (Finset.sum_congr rfl fun d _ => congrArg₂ (· * ·) (vblk_apply m c t 0 r d) (wvblk_apply m c t e d))
    (bvblk_apply m c t e)

/-- AFTER EVERY POINT: the output block is the tile's attention output over its batch's projections, and the two caches
    hold that batch's key and value projections. -/
theorem outs_eq (c : Dev nD) : ∀ (n : ℕ) (h : n < cfg0.N),
    outsAt0 m c n h = (tileOut m c ⟨n, h⟩, kcache m c (bat ⟨n, h⟩), vcache m c (bat ⟨n, h⟩))
  | 0, h => by
    rw [outsAt0_A m c ⟨0, h⟩ rfl, Pieces.out_A, Pieces.kcache_A, Pieces.vcache_A, kproj_eq, vproj_eq]
    rfl
  | n + 1, h => by
    by_cases h0 : (n + 1) % 4 = 0
    · rw [outsAt0_A m c ⟨n + 1, h⟩ h0, Pieces.out_A, Pieces.kcache_A, Pieces.vcache_A, kproj_eq, vproj_eq]
      rfl
    · have hb : bat ⟨n + 1, h⟩ = bat ⟨n, Nat.lt_of_succ_lt h⟩ := Fin.ext (by show (n + 1) / 4 = n / 4; omega)
      rw [outsAt0_B m c ⟨n + 1, h⟩ h0, Pieces.out_B]
      unfold sout0_B_0 sout0_B_1
      show (k0_pay3 _ _ _ (outsAt0 m c n _).2.1 (outsAt0 m c n _).2.2, (outsAt0 m c n _).2.1, (outsAt0 m c n _).2.2) = _
      rw [outs_eq c n (Nat.lt_of_succ_lt h)]
      unfold tileOut
      rw [hb]

end Cert.KernelIdeal.Caches

end
-- ==== Proof.Whole.lean ====
/-
  From the sixteen output blocks to the whole result array.

  Point t writes back the attention output of its tile, which is the specification read at the rows the tile occupies:
  rows (t % 4)·512 … of batch t / 4. The sixteen blocks of 1 × 512 × 1024 tile the 4 × 2048 × 1024 result array — the
  block holding (b, r, d) is the one of point 4·b + r / 512 — so after the run the result array is the specification of
  the nine argument arrays, everywhere.
-/
import proofs.«130175_j17222818857644_2_alg».proof.Proof.Gen.KernelIdeal.Value
import proofs.«130175_j17222818857644_2_alg».proof.Proof.Caches

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.KernelIdeal.Blocks Cert.KernelIdeal.Caches
  Cert.Attention

variable (m : (ℓ : Loc nD τ sig) → Buf (Elt Ideal) ℓ) (ρ : Dev nD → PrngReg)

/-- The specification at the nine argument arrays as launched on core c. -/
def result (c : Dev nD) : Seq.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Point t's output block at (p, d) is the specification at (batch t / 4, the tile's row p, d): the tile's query rows
    are the query layer's rows at those positions, the caches the key and value layers' rows of the batch. -/
theorem tileOut_apply (c : Dev nD) (t : Fin cfg0.N) (u : Fin 1) (p : Fin 512) (d : Fin 1024) :
    tileOut m c t (ix3 u p d) = result m c (ix3 (bat t) (row t p) d) := by
  unfold tileOut
  refine (Payload.pay3_apply (iblk m c 0 t) (iblk m c 3 t) (iblk m c 4 t) (kcache m c (bat t)) (vcache m c (bat t)) u p d).trans ?_
  show _ = attend (linear _ _ _) (linear _ _ _) (linear _ _ _) (bat t) (row t p) d
  unfold attend
  refine Finset.sum_congr rfl fun j _ => ?_
  refine congrArg₂ (· * ·) (congrArg (fun rowf => SoftmaxRows.softmaxAt rowf negInf j) (funext fun c' => ?_)) rfl
  unfold Payload.tileScore score
  refine congrArg (· * scale) (Finset.sum_congr rfl fun e _ => congrArg₂ (· * ·) ?_ rfl)
  unfold Payload.qrow linear
  exact congrArg₂ (· + ·) (Finset.sum_congr rfl fun d' _ => congrArg₂ (· * ·) (qblk_apply m c t 0 p d') (wqblk_apply m c t e d'))
    (bqblk_apply m c t e)

/-- WHAT POINT t WRITES BACK is block t of the specification. -/
theorem flushed_eq (c : Dev nD) (t : Fin cfg0.N) :
    (dats m 0 c).flushed 9 t = ((cfg0.win 9).blk t).view.read (Elt Ideal) (result m c) := by
  rw [Value.flushed9, outs_eq m c t.val t.isLt]
  funext y
  obtain ⟨u, p, d, rfl⟩ : ∃ (u : Fin 1) (p : Fin 512) (d : Fin 1024), y = ix3 u p d := ⟨y 0, y 1, y 2, eq_ix3 y⟩
  show tileOut m c t (ix3 u p d) = result m c (((cfg0.win 9).blk t).view.emb (ix3 u p d))
  rw [tileOut_apply]
  refine congrArg _ (funext fun a => Fin.ext ?_)
  obtain ⟨-, -, -, e0, e1, e2⟩ := idx_tile t
  have hu : u.val = 0 := by omega
  match a with
  | ⟨0, _⟩ => show t.val / 4 = win0_9.index t (0 : Fin 3) * 1 + 1 * u.val; omega
  | ⟨1, _⟩ => show t.val % 4 * 512 + p.val = win0_9.index t (1 : Fin 3) * 512 + 1 * p.val; omega
  | ⟨2, _⟩ => show d.val = win0_9.index t (2 : Fin 3) * 1024 + 1 * d.val; omega

/-- An index of the result array is in point t's block iff each coordinate is in the block's range on its axis. -/
theorem mem_blk (t : Fin cfg0.N) (i : S4x2048x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v3).slice (win0_9.rect t)).set ↔ _
  rw [View.set_slice_whole, Rect.mem_set_unit]
  exact Iff.rfl

/-- The blocks tile the array: (b, r, d) is in the block of point 4·b + r / 512. -/
theorem cover (i : S4x2048x1024.Idx) :
    ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 1024 := (i 2).isLt
  have hN : cfg0.N = 16 := N_0
  have ht : (i 0).val * 4 + (i 1).val / 512 < cfg0.N := by omega
  refine ⟨⟨(i 0).val * 4 + (i 1).val / 512, ht⟩, flush0_9 _, ?_⟩
  rw [mem_blk]
  obtain ⟨-, -, -, e0, e1, e2⟩ := idx_tile ⟨(i 0).val * 4 + (i 1).val / 512, ht⟩
  dsimp only at e0 e1 e2
  intro a
  match a with
  | ⟨0, _⟩ =>
    show win0_9.index ⟨(i 0).val * 4 + (i 1).val / 512, ht⟩ (0 : Fin 3) * 1 ≤ (i 0).val
      ∧ (i 0).val < win0_9.index ⟨(i 0).val * 4 + (i 1).val / 512, ht⟩ (0 : Fin 3) * 1 + 1
    omega
  | ⟨1, _⟩ =>
    show win0_9.index ⟨(i 0).val * 4 + (i 1).val / 512, ht⟩ (1 : Fin 3) * 512 ≤ (i 1).val
      ∧ (i 1).val < win0_9.index ⟨(i 0).val * 4 + (i 1).val / 512, ht⟩ (1 : Fin 3) * 512 + 512
    omega
  | ⟨2, _⟩ =>
    show win0_9.index ⟨(i 0).val * 4 + (i 1).val / 512, ht⟩ (2 : Fin 3) * 1024 ≤ (i 2).val
      ∧ (i 2).val < win0_9.index ⟨(i 0).val * 4 + (i 1).val / 512, ht⟩ (2 : Fin 3) * 1024 + 1024
    omega

/-- THE RESULT ARRAY after the run is the specification of the nine argument arrays. -/
theorem final (c : Dev nD) : (dats m 0 c).arrAt 9 cfg0.N = result m c :=
  (dats m 0 c).arrAt_eq_of_cover 9 (result m c) (fun t _ => flushed_eq m c t) cover

/-- The kernel's run, with its result array at the specification and its arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefValue.lean ====
/-
  The reference program, stage by stage, is the specification.

  The reference computes the three linear layers over the whole arrays, the scores of every query position against
  every key position of its batch scaled by 2⁻⁵, the softmax along the key positions in the careful form (the row's
  maximum taken from −∞, subtracted, exponentiated, and the exponentials divided by their sum), and the weighted sum of
  the value rows. Each stage read at an index is the matching term of the specification:

  * a linear layer at (n, s, e) is the row of the source against row e of the weight matrix plus the bias at e;
  * the row maximum is the fold of max from −∞ over the key positions; the reference takes the maximum with −∞ once more,
    which changes nothing;
  * the host's sum of the exponentials starts from the zero word: 0 + the sum.
-/
import proofs.«130175_j17222818857644_2_alg».proof.Proof.Gen.ReferenceIdeal.Read
import proofs.«130175_j17222818857644_2_alg».proof.Proof.LibSoftmaxRows
import proofs.«130175_j17222818857644_2_alg».proof.Proof.Spec

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Attention

variable (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- The query layer at (n, s, e). -/
theorem proj_q (n : Fin 4) (s : Fin 2048) (e : Fin 1024) :
    val_main_v3 (F := Ideal) x0 x3 x4 (ix3 n s e) = linear x0 x3 x4 n s e := by
  rw [val_main_v3_apply, val_main_v0_apply, val_main_v2_apply, val_main_v1_apply]
  show (∑ k : Fin 1024, x0 (lidx_main_v0 (ix3 n s e) k) * x3 (ridx_main_v0 (ix3 n s e) k))
    + x4 (idx_main_v1 (idx_main_v2 (ix3 n s e))) = _
  unfold linear
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key layer at (n, s, e). -/
theorem proj_k (n : Fin 4) (s : Fin 2048) (e : Fin 1024) :
    val_main_v7 (F := Ideal) x1 x5 x6 (ix3 n s e) = linear x1 x5 x6 n s e := by
  rw [val_main_v7_apply, val_main_v4_apply, val_main_v6_apply, val_main_v5_apply]
  show (∑ k : Fin 1024, x1 (lidx_main_v4 (ix3 n s e) k) * x5 (ridx_main_v4 (ix3 n s e) k))
    + x6 (idx_main_v5 (idx_main_v6 (ix3 n s e))) = _
  unfold linear
  refine congrArg₂ (· + ·) (Finset.sum_congr rfl fun k _ => congrArg₂ (· * ·) (congrArg x1 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value layer at (n, s, e). -/
theorem proj_v (n : Fin 4) (s : Fin 2048) (e : Fin 1024) :
    val_main_v11 (F := Ideal) x2 x7 x8 (ix3 n s e) = linear x2 x7 x8 n s e := by
  rw [val_main_v11_apply, val_main_v8_apply, val_main_v10_apply, val_main_v9_apply]
  show (∑ k : Fin 1024, x2 (lidx_main_v8 (ix3 n s e) k) * x7 (ridx_main_v8 (ix3 n s e) k))
    + x8 (idx_main_v9 (idx_main_v10 (ix3 n s e))) = _
  unfold linear
  refine congrArg₂ (· + ·) (Finset.sum_congr rfl fun k _ => congrArg₂ (· * ·) (congrArg x2 ?_) (congrArg x7 ?_)) (congrArg x8 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The scaled score of query position i against key position j of batch n. -/
theorem score_apply (n : Fin 4) (i j : Fin 2048) :
    val_main_v14 (F := Ideal) x0 x1 x3 x4 x5 x6 (ix3 n i j) = score (linear x0 x3 x4) (linear x1 x5 x6) n i j := by
  rw [val_main_v14_apply, val_main_v12_apply, val_main_v13_apply, val_main_cst_apply]
  show (∑ k : Fin 1024, val_main_v3 (F := Ideal) x0 x3 x4 (lidx_main_v12 (ix3 n i j) k)
      * val_main_v7 (F := Ideal) x1 x5 x6 (ridx_main_v12 (ix3 n i j) k)) * Ideal.ofBits .f32 0x3D000000#32 = _
  unfold score
  refine congrArg (· * scale) (Finset.sum_congr rfl fun k _ => congrArg₂ (· * ·) ?_ ?_)
  · have e : lidx_main_v12 (ix3 n i j) k = ix3 n i k :=
      funext fun a => Fin.ext (by match a with | ⟨0, _⟩ => rfl | ⟨1, _⟩ => rfl | ⟨2, _⟩ => rfl)
    rw [e]; exact proj_q x0 x3 x4 n i k
  · have e : ridx_main_v12 (ix3 n i j) k = ix3 n j k :=
      funext fun a => Fin.ext (by match a with | ⟨0, _⟩ => rfl | ⟨1, _⟩ => rfl | ⟨2, _⟩ => rfl)
    rw [e]; exact proj_k x1 x5 x6 n j k

/-- The maximum of row i's scores, as the fold of max from −∞. -/
def rowMax (n : Fin 4) (i : Fin 2048) : EReal :=
  (Finset.univ : Finset (Fin 2048)).fold max negInf (fun c => score (linear x0 x3 x4) (linear x1 x5 x6) n i c)

/-- The reference's row maximum: the host's reduce from −∞ over the key positions, and the maximum with −∞ once more. -/
theorem max_apply (n : Fin 4) (i : Fin 2048) :
    val_main_v17 (F := Ideal) x0 x1 x3 x4 x5 x6 (ix2 n i) = rowMax x0 x1 x3 x4 x5 x6 n i := by
  rw [val_main_v17_apply, val_main_v16_apply, val_main_cst_1_apply]
  show max (Ideal.ofBits .f32 0xFF800000#32) (val_main_v15 (F := Ideal) x0 x1 x3 x4 x5 x6 (ix2 n i)) = _
  have hfold : val_main_v15 (F := Ideal) x0 x1 x3 x4 x5 x6 (ix2 n i) = rowMax x0 x1 x3 x4 x5 x6 n i := by
    unfold val_main_v15
    refine (SoftmaxRows.hostLaneMax3_apply (n0 := 4) (n1 := 2048) (n2 := 2048) (φ := .f32)
      (val_main_v14 (F := Ideal) x0 x1 x3 x4 x5 x6) (val_main_cst_0 (F := Ideal)) reducesTo_S4x2048x2048_S4x2048_d2
      (by decide) h_S_ n i).trans ?_
    unfold rowMax
    exact Finset.fold_congr fun c _ => score_apply x0 x1 x3 x4 x5 x6 n i c
  rw [hfold]
  exact SoftmaxRows.max_fold_max_self _ _ _

/-- The exponential of a score less its row's maximum. -/
theorem exp_apply (n : Fin 4) (i c : Fin 2048) :
    val_main_v21 (F := Ideal) x0 x1 x3 x4 x5 x6 (ix3 n i c)
      = Ideal.exp (score (linear x0 x3 x4) (linear x1 x5 x6) n i c - rowMax x0 x1 x3 x4 x5 x6 n i) := by
  rw [val_main_v21_apply, val_main_v20_apply, val_main_v19_apply, val_main_v18_apply]
  have e : idx_main_v18 (idx_main_v19 (ix3 n i c)) = ix2 n i :=
    funext fun a => Fin.ext (by match a with | ⟨0, _⟩ => rfl | ⟨1, _⟩ => rfl)
  rw [e, max_apply, score_apply]
  rfl

/-- The sum of a row's exponentials: the host's sum from the zero word. -/
theorem sum_apply (n : Fin 4) (i : Fin 2048) :
    val_main_v22 (F := Ideal) x0 x1 x3 x4 x5 x6 (ix2 n i)
      = ∑ c : Fin 2048, Ideal.exp (score (linear x0 x3 x4) (linear x1 x5 x6) n i c - rowMax x0 x1 x3 x4 x5 x6 n i) := by
  rw [val_main_v22_apply, val_main_cst_2_apply]
  show Ideal.ofBits .f32 0x00000000#32 + _ = _
  rw [Ideal.ofBits_zero_f32, zero_add]
  refine Finset.sum_congr rfl fun c _ => ?_
  have e : idx_main_v22 (ix2 n i) c = ix3 n i c :=
    funext fun a => Fin.ext (by match a with | ⟨0, _⟩ => rfl | ⟨1, _⟩ => rfl | ⟨2, _⟩ => rfl)
  rw [e]; exact exp_apply x0 x1 x3 x4 x5 x6 n i c

/-- The softmax weight of key position j for query position i. -/
theorem weight_apply (n : Fin 4) (i j : Fin 2048) :
    val_main_v25 (F := Ideal) x0 x1 x3 x4 x5 x6 (ix3 n i j)
      = SoftmaxRows.softmaxAt (fun c => score (linear x0 x3 x4) (linear x1 x5 x6) n i c) negInf j := by
  rw [val_main_v25_apply, val_main_v24_apply, val_main_v23_apply]
  have e : idx_main_v23 (idx_main_v24 (ix3 n i j)) = ix2 n i :=
    funext fun a => Fin.ext (by match a with | ⟨0, _⟩ => rfl | ⟨1, _⟩ => rfl)
  rw [e, exp_apply, sum_apply]
  rfl

/-- THE REFERENCE'S RESULT, as a function of its nine arguments, is the specification. -/
theorem result_eq : val_main_v26 (F := Ideal) x0 x1 x2 x3 x4 x5 x6 x7 x8 = G x0 x1 x2 x3 x4 x5 x6 x7 x8 := by
  funext idx
  obtain ⟨n, i, d, rfl⟩ : ∃ (n : Fin 4) (i : Fin 2048) (d : Fin 1024), idx = ix3 n i d := ⟨idx 0, idx 1, idx 2, eq_ix3 idx⟩
  rw [val_main_v26_apply, G_apply]
  unfold attend
  refine Finset.sum_congr rfl fun j _ => congrArg₂ (· * ·) ?_ ?_
  · have e : lidx_main_v26 (ix3 n i d) j = ix3 n i j :=
      funext fun a => Fin.ext (by match a with | ⟨0, _⟩ => rfl | ⟨1, _⟩ => rfl | ⟨2, _⟩ => rfl)
    rw [e]; exact weight_apply x0 x1 x3 x4 x5 x6 n i j
  · have e : ridx_main_v26 (ix3 n i d) j = ix3 n j d :=
      funext fun a => Fin.ext (by match a with | ⟨0, _⟩ => rfl | ⟨1, _⟩ => rfl | ⟨2, _⟩ => rfl)
    rw [e]; exact proj_v x2 x7 x8 n j d

end Cert.ReferenceIdeal.RefValue

end
-- ==== Proof.lean ====
/-
  Scaled dot-product attention after three linear layers: a fused kernel against the plain reference, on the extended reals.

  Both programs take a query, a key and a value source of 4 batches × 2048 positions × 1024 features and, for each, a
  1024 × 1024 weight matrix and a bias. Both pass each source through its linear layer (x · Wᵀ + b), score every query
  position against every key position of its batch, scale by 2⁻⁵, normalise each query position's scores by the softmax
  that subtracts the row's maximum, and take the weighted sum of the value rows (Proof/Spec.lean states this as ONE
  function `G` of the nine argument arrays, index by index).

  The reference does this over the whole arrays, one operation after another (Proof/RefValue.lean reads its stages at an
  index and finds `G`). The kernel works through 16 grid points, 4 tiles of 512 query positions for each of the 4
  batches: at a batch's first tile it projects the batch's keys and values once into two caches, and at every tile it
  projects the tile's queries and attends over the cached projections. Proof/Pieces.lean reads what one run of the body
  leaves as the body's three stored values, Proof/Payload.lean reads those values at an index, Proof/Blocks.lean reads
  the blocks the body is handed off the argument arrays, Proof/Caches.lean shows by induction on the grid point that
  the caches hold the current batch's projections after every point, and Proof/Whole.lean assembles the sixteen output
  blocks into the whole result array: `G` of the arguments again.

  The two sides are the same sums of the same products in the same order of factors, so no law beyond re-indexing finite
  sums is used and the inputs' finiteness is never opened: a change of float format is the identity on the extended
  reals, the kernel's products into a zero accumulator and the reference's contractions are the same finite sums, and
  the reference's one extra maximum with −∞ changes nothing. The idealization rewrote no operation, so the kernel's
  sanctioned idealization is its own text (`preserves` is `True`). The three frames are the generated ones.
-/
import proofs.«130175_j17222818857644_2_alg».proof.Defs
import proofs.«130175_j17222818857644_2_alg».proof.Proof.Gen.Kernel
import proofs.«130175_j17222818857644_2_alg».proof.Proof.Gen.Kernel.Skeleton
import proofs.«130175_j17222818857644_2_alg».proof.Proof.Gen.Kernel.Launch
import proofs.«130175_j17222818857644_2_alg».proof.Proof.Gen.Kernel.Points
import proofs.«130175_j17222818857644_2_alg».proof.Proof.Gen.Kernel.Frame
import proofs.«130175_j17222818857644_2_alg».proof.Proof.Gen.KernelIdeal
import proofs.«130175_j17222818857644_2_alg».proof.Proof.Gen.KernelIdeal.Skeleton
import proofs.«130175_j17222818857644_2_alg».proof.Proof.Gen.KernelIdeal.Launch
import proofs.«130175_j17222818857644_2_alg».proof.Proof.Gen.KernelIdeal.Points
import proofs.«130175_j17222818857644_2_alg».proof.Proof.Gen.KernelIdeal.Frame
import proofs.«130175_j17222818857644_2_alg».proof.Proof.Gen.ReferenceIdeal
import proofs.«130175_j17222818857644_2_alg».proof.Proof.Gen.Pre_finite_inputs
import proofs.«130175_j17222818857644_2_alg».proof.Proof.Gen.KernelIdeal.Value
import proofs.«130175_j17222818857644_2_alg».proof.Proof.Gen.ReferenceIdeal.Run
import proofs.«130175_j17222818857644_2_alg».proof.Proof.Gen.ReferenceIdeal.Read
import proofs.«130175_j17222818857644_2_alg».proof.Proof.Whole
import proofs.«130175_j17222818857644_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments both programs end with the specification of those arguments in their
    result arrays: the kernel by its sixteen blocks, the reference stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v26_eq, Cert.ReferenceIdeal.RefValue.result_eq, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
